-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x32 .f32) (main_arg5 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1x32 : Shape := ⟨2, ![1, 32]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S100000x32 : Shape := ⟨2, ![100000, 32]⟩
abbrev S5000x32 : Shape := ⟨2, ![5000, 32]⟩
abbrev S1700000x32 : Shape := ⟨2, ![1700000, 32]⟩
abbrev S5000 : Shape := ⟨1, ![5000]⟩
abbrev S5000x1 : Shape := ⟨2, ![5000, 1]⟩

abbrev nBuf : Space → Nat
  | .hbm => 84
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1x128, .f32⟩
  | .hbm, ⟨46, _⟩ => ⟨S1x32, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x32, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000, .f32⟩
  | .hbm, ⟨76, _⟩ => ⟨S1700000x1, .f32⟩
  | .hbm, ⟨77, _⟩ => ⟨S1700000x32, .f32⟩
  | .hbm, ⟨78, _⟩ => ⟨S1700000x32, .f32⟩
  | .hbm, ⟨79, _⟩ => ⟨S_, .f32⟩
  | .hbm, ⟨80, _⟩ => ⟨S100000x32, .f32⟩
  | .hbm, ⟨81, _⟩ => ⟨S1700000x1, .i32⟩
  | .hbm, ⟨82, _⟩ => ⟨S100000x32, .f32⟩
  | .hbm, ⟨83, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  shapeCasts_S32_S1x32 : S32.ShapeCasts S1x32
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x32_S5000x32_1_0_0_1_n_n_wf : DotDims.WF S5000x128 S128x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000, .f32⟩
  | .hbm, ⟨80, _⟩ => ⟨S1700000x1, .f32⟩
  | .hbm, ⟨81, _⟩ => ⟨S1700000x32, .f32⟩
  | .hbm, ⟨82, _⟩ => ⟨S1700000x32, .f32⟩
  | .hbm, ⟨83, _⟩ => ⟨S_, .f32⟩
  | .hbm, ⟨84, _⟩ => ⟨S100000x32, .f32⟩
  | .hbm, ⟨85, _⟩ => ⟨S1700000x1, .i32⟩
  | .hbm, ⟨86, _⟩ => ⟨S100000x32, .f32⟩
  | .hbm, ⟨87, _⟩ => ⟨S1x32, .f32⟩
  | .hbm, ⟨88, _⟩ => ⟨S100000x32, .f32⟩
  | .hbm, ⟨89, _⟩ => ⟨S100000x32, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x32, .f32⟩
  | .hbm, ⟨97, _⟩ => ⟨S100000x32, .f32⟩
  | .hbm, ⟨98, _⟩ => ⟨S100000x32, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S100000x32, .f32⟩
  | .hbm, ⟨104, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_call2_cst_0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_cst_1 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_v66 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibJoinCongr.lean ====
/-
  Joining two arrays along an axis respects equality of the pieces.

  The join's side condition speaks only of the pieces' shapes, so replacing each piece by an equal one of the same
  shape leaves the condition as it is.  Stated as a congruence rule for the two pieces.
-/
import Idealize.ShloMosaic.PureOps.ShapeOps

namespace Cert.Lib.JoinCongr

open Idealize.ShloMosaic

/-- Two pieces joined along an axis: equal pieces give equal joins. -/
theorem concatenate_pair_congr {α : Type} {t : Shape} {d : Fin t.rank} {s1 s2 : Shape} {a a' : s1.Idx → α} {b b' : s2.Idx → α}
    (h : Shape.Concatenates ([(⟨s1, a⟩ : (s : Shape) × (s.Idx → α)), ⟨s2, b⟩].map (·.1)) t d) (ha : a = a') (hb : b = b') :
    concatenate t d [⟨s1, a⟩, ⟨s2, b⟩] h = concatenate t d [⟨s1, a'⟩, ⟨s2, b'⟩] h := by
  subst ha; subst hb; rfl

end Cert.Lib.JoinCongr
-- ==== Proof.LibTypedRef.lean ====
/-
  Contents carried to a typed buffer reference and back.

  A module-local function of a host program names its buffers by references that carry the type of the tensor value
  they hold; contents stated at that type are moved to the buffer's own type, and back, along the equation between
  the two.  Moving there and back again, in either order, changes nothing.  Any signature, any value types.
-/
import Idealize.ShloMosaic.Lib.StableHlo

noncomputable section

namespace Cert.Lib.TypedRef

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, hd, hs⟩ := x
  subst h
  rfl

/-- Contents of the buffer moved to the value's type and back are the contents. -/
theorem toBuf_ofBuf (x : TRef sig T) (w : x.ref.ty.Contents Val) : x.toBuf (x.ofBuf w) = w := by
  obtain ⟨r, h, hd, hs⟩ := x
  subst h
  rfl

end Cert.Lib.TypedRef

end
-- ==== Proof.Spec.lean ====
/-
  The two-layer graph convolution as one function of its six arguments, in the host's whole-array operations.

  Every node gets a self loop: the source and target lists are the two rows of the edge list followed by 0 … N − 1.
  The degree of a node is the number of edges into it; its factor is the inverse square root of the degree where the
  degree is positive and zero elsewhere; an edge's coefficient is the product of the factors of its two ends.  A layer
  multiplies the features by its weights, gathers each edge's source row, scales it by the edge's coefficient and
  adds it into the edge's target row.  The first layer adds its bias and takes the maximum with zero, the second adds
  its bias, and the result is the logarithm of the softmax of every row.
-/
import proofs.«175913_j16724602651052_1_alg».proof.Proof.Gen.ReferenceIdeal
import Idealize.ShloMosaic.PureOps.Ideal

noncomputable section

namespace Cert.Gcn

open Idealize.ShloMosaic Cert.ReferenceIdeal Cert.ReferenceIdeal.Gen

abbrev F32 (s : Shape) : Type := FVec Ideal s .f32
abbrev I32 (s : Shape) : Type := IVec s 32

/-- The targets of the edges, the self loops last. -/
def dstIdx (E : I32 S2x1600000) : I32 S1700000 :=
  concatenate S1700000 0 [⟨S1600000, (shapeCast _ (extractStridedSlice S1x1600000 ![1, 0] E slices_S2x1600000_S1x1600000_1_0) shapeCasts_S1x1600000_S1600000)⟩, ⟨S100000, (iotaInDim S100000 32 0)⟩] concatenates_S1600000_S100000_S1700000_d0

/-- The sources of the edges, the self loops last. -/
def srcIdx (E : I32 S2x1600000) : I32 S1700000 :=
  concatenate S1700000 0 [⟨S1600000, (shapeCast _ (extractStridedSlice S1x1600000 ![0, 0] E slices_S2x1600000_S1x1600000_0_0) shapeCasts_S1x1600000_S1600000)⟩, ⟨S100000, (iotaInDim S100000 32 0)⟩] concatenates_S1600000_S100000_S1700000_d0

/-- A negative node number counts from the end. -/
def wrap (I : I32 S1700000) : I32 S1700000 :=
  select (cmpi .slt I (broadcastInDim S1700000 ![] bcast_S_S1700000 (constantI S_ 32 0#32))) (addi I (broadcastInDim S1700000 ![] bcast_S_S1700000 (constantI S_ 32 100000#32))) I

/-- The number of edges into each node, from the target list. -/
def degOf (D : I32 S1700000) : F32 S100000 :=
  Host.scatterAdd scatter_S100000_S1700000x1_S1700000_n_0_0_1 (broadcastInDim S100000 ![] bcast_S_S100000 (constant S_ .f32 0x00000000#32)) (broadcastInDim S1700000x1 ![0] bcast_S1700000_S1700000x1_0 D) (broadcastInDim S1700000 ![] bcast_S_S1700000 (constant S_ .f32 0x3F800000#32))

/-- A node's factor from the flag "its degree is positive", the inverse square root of its degree and the value where
    the flag is off. -/
def pick (P : IVec S100000 1) (R : F32 S100000) (Z : F32 S_) : F32 S100000 :=
  select P R (broadcastInDim S100000 ![] bcast_S_S100000 (id Z))

/-- Each edge's factor at one of its ends: the node factors gathered at the edge's (wrapped) node numbers. -/
def fac (DIS : F32 S100000) (I : I32 S1700000) : F32 S1700000 :=
  Host.gather gather_S100000_S1700000x1_S1700000_n_0_n_n_0_1_1 DIS (broadcastInDim S1700000x1 ![0] bcast_S1700000_S1700000x1_0 (wrap I))

/-- The number of edges into each node. -/
def deg (E : I32 S2x1600000) : F32 S100000 := degOf (dstIdx E)

/-- The flag "the degree is positive" and the inverse square root of the degree. -/
def degPos (E : I32 S2x1600000) : IVec S100000 1 :=
  cmpf (F := Ideal) .ogt (deg E) (broadcastInDim S100000 ![] bcast_S_S100000 (constant S_ .f32 0x00000000#32))
def degRsqrt (E : I32 S2x1600000) : F32 S100000 := Host.rsqrt (deg E)

/-- The inverse square root of the degree where it is positive, zero elsewhere. -/
def dis (E : I32 S2x1600000) : F32 S100000 := pick (degPos E) (degRsqrt E) (constant S_ .f32 0x00000000#32)

/-- Each edge's source factor and target factor. -/
def nsrc (E : I32 S2x1600000) : F32 S1700000 := fac (dis E) (srcIdx E)
def ndst (E : I32 S2x1600000) : F32 S1700000 := fac (dis E) (dstIdx E)

/-- The first projection. -/
def proj1 (X : F32 S100000x256) (W1 : F32 S256x128) : F32 S100000x128 :=
  Host.dotGeneral dot_S100000x256_S256x128_S100000x128_1_0_0_1_n_n none X W1

/-- The aggregation of 128 features per node along the edges, from the source and target lists and the edges' two factors:
    each edge's source row, scaled by the product of the factors, added into its target row. -/
def aggOf128 (H : F32 S100000x128) (S D : I32 S1700000) (NS ND : F32 S1700000) : F32 S100000x128 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 D) (mulf (Host.gather gather_S100000x128_S1700000x1_S1700000x128_1_0_n_n_0_1_1128 H (broadcastInDim S1700000x1 ![0] bcast_S1700000_S1700000x1_0 (wrap S))) (broadcastInDim S1700000x128 ![0, 1] bcast_S1700000x1_S1700000x128_0_1 (broadcastInDim S1700000x1 ![0] bcast_S1700000_S1700000x1_0 (mulf NS ND))))
def agg128 (H : F32 S100000x128) (E : I32 S2x1600000) : F32 S100000x128 :=
  aggOf128 H (srcIdx E) (dstIdx E) (nsrc E) (ndst E)

/-- The first layer's bias, and its rectification. -/
def biased128 (A : F32 S100000x128) (B1 : F32 S128) : F32 S100000x128 :=
  addf A (broadcastInDim S100000x128 ![0, 1] bcast_S1x128_S100000x128_0_1 (broadcastInDim S1x128 ![1] bcast_S128_S1x128_1 B1))
def relu (A : F32 S100000x128) : F32 S100000x128 :=
  maximumf A (broadcastInDim S100000x128 ![] bcast_S_S100000x128 (constant S_ .f32 0x00000000#32))
def hidden (A : F32 S100000x128) (B1 : F32 S128) : F32 S100000x128 := relu (biased128 A B1)

/-- The second projection. -/
def proj2 (H : F32 S100000x128) (W2 : F32 S128x32) : F32 S100000x32 :=
  Host.dotGeneral dot_S100000x128_S128x32_S100000x32_1_0_0_1_n_n none H W2

/-- The aggregation of 32 features per node along the edges. -/
def aggOf32 (H : F32 S100000x32) (S D : I32 S1700000) (NS ND : F32 S1700000) : F32 S100000x32 :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 D) (mulf (Host.gather gather_S100000x32_S1700000x1_S1700000x32_1_0_n_n_0_1_132 H (broadcastInDim S1700000x1 ![0] bcast_S1700000_S1700000x1_0 (wrap S))) (broadcastInDim S1700000x32 ![0, 1] bcast_S1700000x1_S1700000x32_0_1 (broadcastInDim S1700000x1 ![0] bcast_S1700000_S1700000x1_0 (mulf NS ND))))
def agg32 (H : F32 S100000x32) (E : I32 S2x1600000) : F32 S100000x32 :=
  aggOf32 H (srcIdx E) (dstIdx E) (nsrc E) (ndst E)

/-- The second layer's bias. -/
def logits (A : F32 S100000x32) (B2 : F32 S32) : F32 S100000x32 :=
  addf A (broadcastInDim S100000x32 ![0, 1] bcast_S1x32_S100000x32_0_1 (broadcastInDim S1x32 ![1] bcast_S32_S1x32_1 B2))

/-- The logarithm of the softmax of every row. -/
def logSoftmax (L : F32 S100000x32) : F32 S100000x32 :=
  subf (subf L (broadcastInDim S100000x32 ![0, 1] bcast_S100000x1_S100000x32_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x32_S100000_d1 h_S_))))) (broadcastInDim S100000x32 ![0, 1] bcast_S100000x1_S100000x32_0_1 (Host.log (broadcastInDim S100000x1 ![0] bcast_S100000_S100000x1_0 (Host.reduceAdd (Host.exp (subf L (broadcastInDim S100000x32 ![0, 1] bcast_S100000x1_S100000x32_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x32_S100000_d1 h_S_)))))) (constant S_ .f32 0x00000000#32) reducesTo_S100000x32_S100000_d1 h_S_))))

/-- The whole network. -/
def out (X : F32 S100000x256) (E : I32 S2x1600000) (W1 : F32 S256x128) (B1 : F32 S128) (W2 : F32 S128x32) (B2 : F32 S32) : F32 S100000x32 :=
  logSoftmax (logits (agg32 (proj2 (hidden (agg128 (proj1 X W1) E) B1) W2) E) B2)

end Cert.Gcn

end
-- ==== Proof.RefRun.lean ====
/-
  The reference's run, read in four parts.

  The reference is a straight line of 99 host operations.  Its first part computes, from the edge list alone, the
  source and target lists with self loops, the sign flag of every node's degree and the degree's inverse square root.
  The second part chooses each node's factor, gathers the factors at both ends of every edge, multiplies the features
  by the first weights, aggregates along the edges and adds the first bias.  The third part takes the maximum with
  zero, multiplies by the second weights, aggregates again and adds the second bias.  The last part is the logarithm
  of the softmax of every row.  Each part is read from arbitrary contents of the buffers it finds, so that no part's
  reading opens another's arithmetic; chained, the four readings are the network's function of the six arguments.
-/
import proofs.«175913_j16724602651052_1_alg».proof.Proof.Gen.ReferenceIdeal
import Idealize.ShloMosaic.Lib.StableHlo.Run
import Idealize.ShloMosaic.Lib.Pipeline.Frame
import proofs.«175913_j16724602651052_1_alg».proof.Proof.LibJoinCongr
import proofs.«175913_j16724602651052_1_alg».proof.Proof.LibTypedRef
import proofs.«175913_j16724602651052_1_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 99 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_arg0 main_arg2 main_v29 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    binary main_v21 main_v28 main_v37 (mulf : (⟨S1700000, .f32⟩ : BufTy).Contents (Elt F) → (⟨S1700000, .f32⟩ : BufTy).Contents (Elt F) → (⟨S1700000, .f32⟩ : BufTy).Contents (Elt F)),
    unary main_v37 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    binary main_v21 main_v28 main_v56 (mulf : (⟨S1700000, .f32⟩ : BufTy).Contents (Elt F) → (⟨S1700000, .f32⟩ : BufTy).Contents (Elt F) → (⟨S1700000, .f32⟩ : BufTy).Contents (Elt F)),
    unary main_v56 main_v57 (broadcastInDim S1700000x1 ![0] bcast_S1700000_S1700000x1_0 : (⟨S1700000, .f32⟩ : BufTy).Contents (Elt F) → (⟨S1700000x1, .f32⟩ : BufTy).Contents (Elt F)),
    unary main_v57 main_v58 (broadcastInDim S1700000x32 ![0, 1] bcast_S1700000x1_S1700000x32_0_1 : (⟨S1700000x1, .f32⟩ : BufTy).Contents (Elt F) → (⟨S1700000x32, .f32⟩ : BufTy).Contents (Elt F)),
    binary main_v55 main_v58 main_v59 (mulf : (⟨S1700000x32, .f32⟩ : BufTy).Contents (Elt F) → (⟨S1700000x32, .f32⟩ : BufTy).Contents (Elt F) → (⟨S1700000x32, .f32⟩ : BufTy).Contents (Elt F)),
    nullary main_cst_11 (constant S_ .f32 0x00000000#32),
    unary main_cst_11 main_v60 (broadcastInDim S100000x32 ![] bcast_S_S100000x32 : (⟨S_, .f32⟩ : BufTy).Contents (Elt F) → (⟨S100000x32, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg5 main_v63 (broadcastInDim S1x32 ![1] bcast_S32_S1x32_1 : (⟨S32, .f32⟩ : BufTy).Contents (Elt F) → (⟨S1x32, .f32⟩ : BufTy).Contents (Elt F)),
    unary main_v63 main_v64 (broadcastInDim S100000x32 ![0, 1] bcast_S1x32_S100000x32_0_1 : (⟨S1x32, .f32⟩ : BufTy).Contents (Elt F) → (⟨S100000x32, .f32⟩ : BufTy).Contents (Elt F)),
    binary main_v62 main_v64 main_v65 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call2_cst) (constant S_ .f32 0xFF800000#32),
    TRef.binary (TRef.of (T := ⟨S100000x32, .f32⟩) main_v65) (TRef.of (T := ⟨S_, .f32⟩) main_call2_cst) (TRef.of (T := ⟨S100000, .f32⟩) main_call2_v0) (fun x v => Host.reduce FloatOps.maximumf x v reducesTo_S100000x32_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x32, .f32⟩) main_call2_v4) (broadcastInDim S100000x32 ![0, 1] bcast_S100000x1_S100000x32_0_1),
    TRef.binary (TRef.of (T := ⟨S100000x32, .f32⟩) main_v65) (TRef.of (T := ⟨S100000x32, .f32⟩) main_call2_v4) (TRef.of (T := ⟨S100000x32, .f32⟩) main_call2_v5) subf,
    TRef.unary (TRef.of (T := ⟨S100000x32, .f32⟩) main_call2_v5) (TRef.of (T := ⟨S100000x32, .f32⟩) main_call2_v6) Host.exp,
    TRef.nullary (TRef.of (T := ⟨S_, .f32⟩) main_call2_cst_1) (constant S_ .f32 0x00000000#32),
    TRef.binary (TRef.of (T := ⟨S100000x32, .f32⟩) main_call2_v6) (TRef.of (T := ⟨S_, .f32⟩) main_call2_cst_1) (TRef.of (T := ⟨S100000, .f32⟩) main_call2_v7) (fun x v => Host.reduceAdd x v reducesTo_S100000x32_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x32, .f32⟩) main_call2_v10) (broadcastInDim S100000x32 ![0, 1] bcast_S100000x1_S100000x32_0_1),
    TRef.binary (TRef.of (T := ⟨S100000x32, .f32⟩) main_call2_v5) (TRef.of (T := ⟨S100000x32, .f32⟩) main_call2_v10) (TRef.of (T := ⟨S100000x32, .f32⟩) main_v66) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The four parts -/

/-- The edge lists, the degree, its sign flag and inverse square root. -/
abbrev part1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The node factors, the edges' factors, the first projection, its aggregation and bias. -/
abbrev part2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_arg0 main_arg2 main_v29 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_6 (constantI S_ 32 0#32),
    unary main_c_6 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    binary main_v21 main_v28 main_v37 (mulf : (⟨S1700000, .f32⟩ : BufTy).Contents (Elt F) → (⟨S1700000, .f32⟩ : BufTy).Contents (Elt F) → (⟨S1700000, .f32⟩ : BufTy).Contents (Elt F)),
    unary main_v37 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The rectification, the second projection, its aggregation and bias. -/
abbrev part3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    binary main_v21 main_v28 main_v56 (mulf : (⟨S1700000, .f32⟩ : BufTy).Contents (Elt F) → (⟨S1700000, .f32⟩ : BufTy).Contents (Elt F) → (⟨S1700000, .f32⟩ : BufTy).Contents (Elt F)),
    unary main_v56 main_v57 (broadcastInDim S1700000x1 ![0] bcast_S1700000_S1700000x1_0 : (⟨S1700000, .f32⟩ : BufTy).Contents (Elt F) → (⟨S1700000x1, .f32⟩ : BufTy).Contents (Elt F)),
    unary main_v57 main_v58 (broadcastInDim S1700000x32 ![0, 1] bcast_S1700000x1_S1700000x32_0_1 : (⟨S1700000x1, .f32⟩ : BufTy).Contents (Elt F) → (⟨S1700000x32, .f32⟩ : BufTy).Contents (Elt F)),
    binary main_v55 main_v58 main_v59 (mulf : (⟨S1700000x32, .f32⟩ : BufTy).Contents (Elt F) → (⟨S1700000x32, .f32⟩ : BufTy).Contents (Elt F) → (⟨S1700000x32, .f32⟩ : BufTy).Contents (Elt F)),
    nullary main_cst_11 (constant S_ .f32 0x00000000#32),
    unary main_cst_11 main_v60 (broadcastInDim S100000x32 ![] bcast_S_S100000x32 : (⟨S_, .f32⟩ : BufTy).Contents (Elt F) → (⟨S100000x32, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg5 main_v63 (broadcastInDim S1x32 ![1] bcast_S32_S1x32_1 : (⟨S32, .f32⟩ : BufTy).Contents (Elt F) → (⟨S1x32, .f32⟩ : BufTy).Contents (Elt F)),
    unary main_v63 main_v64 (broadcastInDim S100000x32 ![0, 1] bcast_S1x32_S100000x32_0_1 : (⟨S1x32, .f32⟩ : BufTy).Contents (Elt F) → (⟨S100000x32, .f32⟩ : BufTy).Contents (Elt F)),
    binary main_v62 main_v64 main_v65 (addf : (⟨S100000x32, .f32⟩ : BufTy).Contents (Elt F) → (⟨S100000x32, .f32⟩ : BufTy).Contents (Elt F) → (⟨S100000x32, .f32⟩ : BufTy).Contents (Elt F)) ]

/-- The logarithm of the softmax. -/
abbrev part4 : List (HloOp τ sig (Elt F)) :=
  [ TRef.nullary (TRef.of (T := ⟨S_, .f32⟩) main_call2_cst) (constant S_ .f32 0xFF800000#32),
    TRef.binary (TRef.of (T := ⟨S100000x32, .f32⟩) main_v65) (TRef.of (T := ⟨S_, .f32⟩) main_call2_cst) (TRef.of (T := ⟨S100000, .f32⟩) main_call2_v0) (fun x v => Host.reduce FloatOps.maximumf x v reducesTo_S100000x32_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x32, .f32⟩) main_call2_v4) (broadcastInDim S100000x32 ![0, 1] bcast_S100000x1_S100000x32_0_1),
    TRef.binary (TRef.of (T := ⟨S100000x32, .f32⟩) main_v65) (TRef.of (T := ⟨S100000x32, .f32⟩) main_call2_v4) (TRef.of (T := ⟨S100000x32, .f32⟩) main_call2_v5) subf,
    TRef.unary (TRef.of (T := ⟨S100000x32, .f32⟩) main_call2_v5) (TRef.of (T := ⟨S100000x32, .f32⟩) main_call2_v6) Host.exp,
    TRef.nullary (TRef.of (T := ⟨S_, .f32⟩) main_call2_cst_1) (constant S_ .f32 0x00000000#32),
    TRef.binary (TRef.of (T := ⟨S100000x32, .f32⟩) main_call2_v6) (TRef.of (T := ⟨S_, .f32⟩) main_call2_cst_1) (TRef.of (T := ⟨S100000, .f32⟩) main_call2_v7) (fun x v => Host.reduceAdd x v reducesTo_S100000x32_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x32, .f32⟩) main_call2_v10) (broadcastInDim S100000x32 ![0, 1] bcast_S100000x1_S100000x32_0_1),
    TRef.binary (TRef.of (T := ⟨S100000x32, .f32⟩) main_call2_v5) (TRef.of (T := ⟨S100000x32, .f32⟩) main_call2_v10) (TRef.of (T := ⟨S100000x32, .f32⟩) main_v66) subf ]

theorem ops_split : (ops : List (HloOp τ sig (Elt F))) = part1 ++ (part2 ++ (part3 ++ part4)) := rfl

attribute [local congr] Cert.Lib.JoinCongr.concatenate_pair_congr

macro "read_part1" : tactic => `(tactic| (dsimp only [part1]; after_results_simp))
macro "read_part2" : tactic => `(tactic| (dsimp only [part2]; after_results_simp; try simp only [Cert.Lib.TypedRef.ofBuf_toBuf]))
macro "read_part3" : tactic => `(tactic| (dsimp only [part3]; after_results_simp; try simp only [Cert.Lib.TypedRef.ofBuf_toBuf]))
macro "read_part4" : tactic => `(tactic| (dsimp only [part4]; after_results_simp; try simp only [Cert.Lib.TypedRef.ofBuf_toBuf]))

section Parts
variable (U : Valuation τ sig (Elt Ideal))

/-! ### Part 1, from any contents -/

theorem part1_src : after (part1 (F := Ideal)) U (Proc.devRef .tc main_v3) = Cert.Gcn.srcIdx (U (Proc.devRef .tc main_arg1)) := by
  read_part1
  unfold Cert.Gcn.srcIdx
  exact rfl
theorem part1_dst : after (part1 (F := Ideal)) U (Proc.devRef .tc main_v6) = Cert.Gcn.dstIdx (U (Proc.devRef .tc main_arg1)) := by
  read_part1
  unfold Cert.Gcn.dstIdx
  exact rfl
theorem part1_pos : after (part1 (F := Ideal)) U (Proc.devRef .tc main_v12) = Cert.Gcn.degPos (U (Proc.devRef .tc main_arg1)) := by
  read_part1
  unfold Cert.Gcn.degPos Cert.Gcn.deg Cert.Gcn.degOf Cert.Gcn.dstIdx
  exact rfl
theorem part1_rsq : after (part1 (F := Ideal)) U (Proc.devRef .tc main_v13) = Cert.Gcn.degRsqrt (U (Proc.devRef .tc main_arg1)) := by
  read_part1
  unfold Cert.Gcn.degRsqrt Cert.Gcn.deg Cert.Gcn.degOf Cert.Gcn.dstIdx
  exact rfl
theorem part1_zero : after (part1 (F := Ideal)) U (Proc.devRef .tc main_cst_2) = constant (F := Ideal) S_ .f32 0x00000000#32 := by
  read_part1 <;> exact rfl
theorem part1_keep_main_arg0 : after (part1 (F := Ideal)) U (Proc.devRef .tc main_arg0) = U (Proc.devRef .tc main_arg0) := by
  read_part1 <;> exact rfl
theorem part1_keep_main_arg2 : after (part1 (F := Ideal)) U (Proc.devRef .tc main_arg2) = U (Proc.devRef .tc main_arg2) := by
  read_part1 <;> exact rfl
theorem part1_keep_main_arg3 : after (part1 (F := Ideal)) U (Proc.devRef .tc main_arg3) = U (Proc.devRef .tc main_arg3) := by
  read_part1 <;> exact rfl
theorem part1_keep_main_arg4 : after (part1 (F := Ideal)) U (Proc.devRef .tc main_arg4) = U (Proc.devRef .tc main_arg4) := by
  read_part1 <;> exact rfl
theorem part1_keep_main_arg5 : after (part1 (F := Ideal)) U (Proc.devRef .tc main_arg5) = U (Proc.devRef .tc main_arg5) := by
  read_part1 <;> exact rfl

/-! ### Part 2, from any contents -/

theorem part2_nsrc : after (part2 (F := Ideal)) U (Proc.devRef .tc main_v21) = Cert.Gcn.fac (Cert.Gcn.pick (U (Proc.devRef .tc main_v12)) (U (Proc.devRef .tc main_v13)) (U (Proc.devRef .tc main_cst_2))) (U (Proc.devRef .tc main_v3)) := by
  read_part2
  unfold Cert.Gcn.fac Cert.Gcn.pick Cert.Gcn.wrap
  exact rfl
theorem part2_ndst : after (part2 (F := Ideal)) U (Proc.devRef .tc main_v28) = Cert.Gcn.fac (Cert.Gcn.pick (U (Proc.devRef .tc main_v12)) (U (Proc.devRef .tc main_v13)) (U (Proc.devRef .tc main_cst_2))) (U (Proc.devRef .tc main_v6)) := by
  read_part2
  unfold Cert.Gcn.fac Cert.Gcn.pick Cert.Gcn.wrap
  exact rfl
theorem part2_layer : after (part2 (F := Ideal)) U (Proc.devRef .tc main_v46)
    = Cert.Gcn.biased128 (Cert.Gcn.aggOf128 (Cert.Gcn.proj1 (U (Proc.devRef .tc main_arg0)) (U (Proc.devRef .tc main_arg2))) (U (Proc.devRef .tc main_v3)) (U (Proc.devRef .tc main_v6))
        (Cert.Gcn.fac (Cert.Gcn.pick (U (Proc.devRef .tc main_v12)) (U (Proc.devRef .tc main_v13)) (U (Proc.devRef .tc main_cst_2))) (U (Proc.devRef .tc main_v3))) (Cert.Gcn.fac (Cert.Gcn.pick (U (Proc.devRef .tc main_v12)) (U (Proc.devRef .tc main_v13)) (U (Proc.devRef .tc main_cst_2))) (U (Proc.devRef .tc main_v6)))) (U (Proc.devRef .tc main_arg3)) := by
  read_part2
  unfold Cert.Gcn.biased128 Cert.Gcn.aggOf128 Cert.Gcn.proj1 Cert.Gcn.fac Cert.Gcn.pick Cert.Gcn.wrap
  exact rfl
theorem part2_keep_main_v3 : after (part2 (F := Ideal)) U (Proc.devRef .tc main_v3) = U (Proc.devRef .tc main_v3) := by
  read_part2 <;> exact rfl
theorem part2_keep_main_v6 : after (part2 (F := Ideal)) U (Proc.devRef .tc main_v6) = U (Proc.devRef .tc main_v6) := by
  read_part2 <;> exact rfl
theorem part2_keep_main_arg4 : after (part2 (F := Ideal)) U (Proc.devRef .tc main_arg4) = U (Proc.devRef .tc main_arg4) := by
  read_part2 <;> exact rfl
theorem part2_keep_main_arg5 : after (part2 (F := Ideal)) U (Proc.devRef .tc main_arg5) = U (Proc.devRef .tc main_arg5) := by
  read_part2 <;> exact rfl

/-! ### Part 3, from any contents -/

theorem part3_scores : after (part3 (F := Ideal)) U (Proc.devRef .tc main_v65)
    = Cert.Gcn.logits (Cert.Gcn.aggOf32 (Cert.Gcn.proj2 (Cert.Gcn.relu (U (Proc.devRef .tc main_v46))) (U (Proc.devRef .tc main_arg4))) (U (Proc.devRef .tc main_v3)) (U (Proc.devRef .tc main_v6))
        (U (Proc.devRef .tc main_v21)) (U (Proc.devRef .tc main_v28))) (U (Proc.devRef .tc main_arg5)) := by
  read_part3
  unfold Cert.Gcn.logits Cert.Gcn.aggOf32 Cert.Gcn.proj2 Cert.Gcn.relu Cert.Gcn.wrap
  exact rfl

/-! ### Part 4, from any contents -/

theorem part4_result : after (part4 (F := Ideal)) U (Proc.devRef .tc main_v66) = Cert.Gcn.logSoftmax (U (Proc.devRef .tc main_v65)) := by
  read_part4
  unfold Cert.Gcn.logSoftmax
  exact rfl

end Parts

/-! ## The whole line -/

/-- The result buffer after the whole line, from any contents: the network of the six arguments found. -/
theorem result (V : Valuation τ sig (Elt Ideal)) :
    after (ops (F := Ideal)) V (Proc.devRef .tc main_v66)
      = Cert.Gcn.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, StableHlo.after_append, StableHlo.after_append, StableHlo.after_append]
  rw [part4_result, part3_scores, part2_layer, part2_nsrc, part2_ndst, part2_keep_main_v3, part2_keep_main_v6, part2_keep_main_arg4,
    part2_keep_main_arg5, part1_src, part1_dst, part1_pos, part1_rsq, part1_zero, part1_keep_main_arg0, part1_keep_main_arg2,
    part1_keep_main_arg3, part1_keep_main_arg4, part1_keep_main_arg5]
  rfl

set_option maxRecDepth 8192 in
set_option maxHeartbeats 39600000 in
/-- On every device, from any memory with zero counters: every weakly fair execution of the reference terminates with
    the network's function of the arguments in its result buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
          = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.NamedRun.lean ====
/-
  The whole program's run with the result named.

  The program is eight segments: three stretches of host operations, the first projection, the first aggregation on
  the host, the rectified second projection, the second aggregation on the host, and the bias with the logarithm of the
  softmax.  Every weakly fair execution runs them in order and terminates; the buffer contents at each boundary are
  the fold of the segments over the launch memory.  Read at the end, the result buffer holds the last boundary's
  contents of the last kernel's output array, and the six arguments hold what they were launched with.
-/
import proofs.«175913_j16724602651052_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«175913_j16724602651052_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«175913_j16724602651052_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.Region0.lean ====
/-
  The first projection, computed in twenty blocks of 5000 rows.

  Grid point t loads rows 5000·t … 5000·t + 4999 of the node features and the whole first weight matrix, and stores
  their product into the same rows of the result.  The product of a row block with a matrix is the row block of the
  product, and the twenty blocks tile the 100000 rows, so whatever the node features and the weights are when the
  region is entered, the result array ends holding their whole product.
-/
import proofs.«175913_j16724602651052_1_alg».proof.Proof.Gen.KernelIdeal.Frame
import proofs.«175913_j16724602651052_1_alg».proof.Proof.LibBlockOfWhole
import Idealize.ShloMosaic.Lib.Pipeline.Value

noncomputable section

open Idealize.ShloMosaic Idealize.ShloMosaic.TcCoe Idealize.SL.Sem
open Idealize.ShloMosaic.Pipeline (Dat)

namespace Cert.KernelIdeal.Rows0

open Cert.KernelIdeal Cert.KernelIdeal.Gen Cert.Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the weights at the origin. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows_le (t : Fin cfg0.N) : 5000 * t.val + 5000 ≤ 100000 := by
  have h : t.val < 20 := lt_of_lt_of_eq t.isLt N_0
  omega

/-- The whole product of the node features and the weights, as the host spells it. -/
def prod (X : FVec Ideal ⟨2, ![100000, 256]⟩ .f32) (W : FVec Ideal ⟨2, ![256, 128]⟩ .f32) : FVec Ideal ⟨2, ![100000, 128]⟩ .f32 :=
  Host.dotGeneral (DotDims.plain 100000 256 128) none X W

/-- The block of node features at point t is rows 5000·t … of the array. -/
theorem feat_block (c : Dev nD) (t : Fin cfg0.N) :
    (iblk0 V c 0 t : (⟨2, ![5000, 256]⟩ : Shape).Idx → EReal)
      = rowBlk (R := 5000) (N := 100000) (C := 256) (5000 * t.val) (rows_le t) (V c main_arg0) := by
  funext y
  obtain ⟨e0, e1, -⟩ := idx t
  show V c main_arg0 (((cfg0.win 0).blk t).view.emb y) = V c main_arg0 (shiftRow (5000 * t.val) (rows_le t) y)
  refine congrArg (V c main_arg0) (funext fun a => Fin.ext ?_)
  match a with
  | ⟨0, _⟩ => show win0_0.index t (0 : Fin 2) * 5000 + 1 * (y 0).val = 5000 * t.val + (y 0).val; rw [e0]; omega
  | ⟨1, _⟩ => show win0_0.index t (1 : Fin 2) * 256 + 1 * (y 1).val = (y 1).val; rw [e1]; omega

/-- The weights' block at every point is the whole matrix. -/
theorem weight_block (c : Dev nD) (t : Fin cfg0.N) :
    (iblk0 V c 1 t : (⟨2, ![256, 128]⟩ : Shape).Idx → EReal) = V c main_arg2 := by
  funext y
  obtain ⟨-, -, e2, e3, -⟩ := idx t
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; rw [e2]; omega
  | ⟨1, _⟩ => show win0_1.index t (1 : Fin 2) * 128 + 1 * (y 1).val = (y 1).val; rw [e3]; omega

/-- What the body stores is its arithmetic of the two loaded blocks. -/
theorem stored (x0 : Vec Ideal S5000x256 .f32) (x1 : Vec Ideal S256x128 .f32) : out0_2 x0 x1 = k0_pay1 x0 x1 := by
  unfold out0_2
  rw [View.canon_unit_zero hz]
  simp only [View.ld_unit_zero (S := S5000x256) hz, View.ld_unit_zero (S := S256x128) hz]

/-- The body's arithmetic on a row block: the row block of the whole product (the narrowing to bf16 before the product
    is the identity on the extended reals). -/
theorem payload (o : Nat) (h : o + 5000 ≤ 100000) (X : FVec Ideal ⟨2, ![100000, 256]⟩ .f32) (W : FVec Ideal ⟨2, ![256, 128]⟩ .f32) :
    k0_pay1 (F := Ideal) (rowBlk (R := 5000) (N := 100000) (C := 256) o h X) W
      = rowBlk (R := 5000) (N := 100000) (C := 128) o h (prod X W) := by
  unfold k0_pay1
  dsimp only
  rw [truncf_ideal, truncf_ideal]
  exact matmul_rowBlk o h _ rfl _ rfl _ _

/-- What point t writes back is block t of the whole product. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2, stored]
  have e0 := feat_block V c t
  have e1 := weight_block V c t
  have hp : k0_pay1 (F := Ideal) (iblk0 V c 0 t) (iblk0 V c 1 t)
      = rowBlk (R := 5000) (N := 100000) (C := 128) (5000 * t.val) (rows_le t) (prod (V c main_arg0) (V c main_arg2)) := by
    rw [e0, e1]
    exact payload (5000 * t.val) (rows_le t) _ _
  funext j
  obtain ⟨-, -, -, -, e4, e5⟩ := idx t
  show k0_pay1 (F := Ideal) (iblk0 V c 0 t) (iblk0 V c 1 t) j
    = prod (V c main_arg0) (V c main_arg2) (((cfg0.win 2).blk t).view.emb j)
  rw [hp, rowBlk_apply]
  refine congrArg (prod (V c main_arg0) (V c main_arg2)) (funext fun a => Fin.ext ?_)
  match a with
  | ⟨0, _⟩ => show 5000 * t.val + (j 0).val = win0_2.index t (0 : Fin 2) * 5000 + 1 * (j 0).val; rw [e4]; omega
  | ⟨1, _⟩ => show (j 1).val = win0_2.index t (1 : Fin 2) * 128 + 1 * (j 1).val; rw [e5]; omega

/-- An entry is in point t's block exactly when its row is among the block's rows and its column among the block's columns. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every entry of the result lies in the block of the point its row belongs to. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_2 _, ?_⟩
  rw [mem_blk]
  obtain ⟨-, -, -, -, e4, e5⟩ := idx ⟨(i 0).val / 5000, hlt⟩
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; dsimp only; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- After the region the result array holds the whole product of what the region found in its two operands. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) (cover)

end Cert.KernelIdeal.Rows0

end
-- ==== Proof.Region1.lean ====
/-
  The rectified second projection, computed in twenty blocks of 5000 rows.

  Grid point t loads rows 5000·t … 5000·t + 4999 of the aggregated features, the bias as one row and the whole second
  weight matrix; it adds the bias row to every row, takes the maximum with zero, multiplies by the weights and stores
  the product into the same rows of the result.  Adding a stretched row, a maximum with a constant and a product with
  a matrix all act on each row by itself, so the block computation is the block of the whole-array computation, and
  the twenty blocks tile the 100000 rows.
-/
import proofs.«175913_j16724602651052_1_alg».proof.Proof.Gen.KernelIdeal.Frame
import proofs.«175913_j16724602651052_1_alg».proof.Proof.LibBlockOfWhole
import Idealize.ShloMosaic.Lib.Pipeline.Value

noncomputable section

open Idealize.ShloMosaic Idealize.ShloMosaic.TcCoe Idealize.SL.Sem
open Idealize.ShloMosaic.Pipeline (Dat)

namespace Cert.KernelIdeal.Rows1

open Cert.KernelIdeal Cert.KernelIdeal.Gen Cert.Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the bias and the weights at the origin. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem idxOut (t : Fin cfg1.N) : win1_3.index t (0 : Fin 2) = t.val ∧ win1_3.index t (1 : Fin 2) = 0 := by
  obtain ⟨-, -, -, -, -, -, e6, e7⟩ := idx t
  exact ⟨e6, e7⟩

theorem rows_le (t : Fin cfg1.N) : 5000 * t.val + 5000 ≤ 100000 := by
  have h : t.val < 20 := lt_of_lt_of_eq t.isLt N_1
  omega

theorem bRow : (⟨1, ![128]⟩ : Shape).BroadcastsInDim ⟨2, ![1, 128]⟩ ![1] := by decide
theorem bDown : (⟨2, ![1, 128]⟩ : Shape).BroadcastsInDim ⟨2, ![100000, 128]⟩ ![0, 1] := by decide
theorem bZero : (⟨0, ![]⟩ : Shape).BroadcastsInDim ⟨2, ![100000, 128]⟩ ![] := by decide

/-- The whole layer as the host spells it: the bias vector laid out as a row and stretched down the rows, added, the
    maximum with zero, the product with the weights. -/
def layer (A : FVec Ideal ⟨2, ![100000, 128]⟩ .f32) (b : FVec Ideal ⟨1, ![128]⟩ .f32) (W : FVec Ideal ⟨2, ![128, 32]⟩ .f32) :
    FVec Ideal ⟨2, ![100000, 32]⟩ .f32 :=
  Host.dotGeneral (DotDims.plain 100000 128 32) none
    (maximumf (addf A (broadcastInDim ⟨2, ![100000, 128]⟩ ![0, 1] bDown (broadcastInDim ⟨2, ![1, 128]⟩ ![1] bRow b)))
      (broadcastInDim ⟨2, ![100000, 128]⟩ ![] bZero (constant (F := Ideal) ⟨0, ![]⟩ .f32 0x00000000#32))) W

/-- The block of aggregated features at point t is rows 5000·t … of the array. -/
theorem act_block (c : Dev nD) (t : Fin cfg1.N) :
    (iblk1 V c 0 t : (⟨2, ![5000, 128]⟩ : Shape).Idx → EReal)
      = rowBlk (R := 5000) (N := 100000) (C := 128) (5000 * t.val) (rows_le t) (V c main_v45) := by
  funext y
  obtain ⟨e0, e1, -⟩ := idx t
  show V c main_v45 (((cfg1.win 0).blk t).view.emb y) = V c main_v45 (shiftRow (5000 * t.val) (rows_le t) y)
  refine congrArg (V c main_v45) (funext fun a => Fin.ext ?_)
  match a with
  | ⟨0, _⟩ => show win1_0.index t (0 : Fin 2) * 5000 + 1 * (y 0).val = 5000 * t.val + (y 0).val; rw [e0]; omega
  | ⟨1, _⟩ => show win1_0.index t (1 : Fin 2) * 128 + 1 * (y 1).val = (y 1).val; rw [e1]; omega

/-- The bias row's block at every point is the whole row. -/
theorem bias_block (c : Dev nD) (t : Fin cfg1.N) :
    (iblk1 V c 1 t : (⟨2, ![1, 128]⟩ : Shape).Idx → EReal) = V c main_v29 := by
  funext y
  obtain ⟨-, -, e2, e3, -⟩ := idx t
  show V c main_v29 (((cfg1.win 1).blk t).view.emb y) = V c main_v29 y
  refine congrArg (V c main_v29) (funext fun a => Fin.ext ?_)
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- The weights' block at every point is the whole matrix. -/
theorem weight_block (c : Dev nD) (t : Fin cfg1.N) :
    (iblk1 V c 2 t : (⟨2, ![128, 32]⟩ : Shape).Idx → EReal) = V c main_arg4 := by
  funext y
  obtain ⟨-, -, -, -, e4, e5, -⟩ := idx t
  show V c main_arg4 (((cfg1.win 2).blk t).view.emb y) = V c main_arg4 y
  refine congrArg (V c main_arg4) (funext fun a => Fin.ext ?_)
  match a with
  | ⟨0, _⟩ => show win1_2.index t (0 : Fin 2) * 128 + 1 * (y 0).val = (y 0).val; rw [e4]; omega
  | ⟨1, _⟩ => show win1_2.index t (1 : Fin 2) * 32 + 1 * (y 1).val = (y 1).val; rw [e5]; omega

/-- What the body stores is its arithmetic of the three loaded blocks. -/
theorem stored (x0 : Vec Ideal S5000x128 .f32) (x1 : Vec Ideal S1x128 .f32) (x2 : Vec Ideal S128x32 .f32) :
    out1_3 x0 x1 x2 = k1_pay1 x0 x1 x2 := by
  unfold out1_3
  rw [View.canon_unit_zero hz]
  simp only [View.ld_unit_zero (S := S5000x128) hz, View.ld_unit_zero (S := S1x128) hz, View.ld_unit_zero (S := S128x32) hz]

/-- The body's arithmetic on a row block, the bias given as a vector laid out as one row: the row block of the layer. -/
theorem payload (o : Nat) (h : o + 5000 ≤ 100000) (A : FVec Ideal ⟨2, ![100000, 128]⟩ .f32) (b : FVec Ideal ⟨1, ![128]⟩ .f32)
    (W : FVec Ideal ⟨2, ![128, 32]⟩ .f32) :
    k1_pay1 (F := Ideal) (rowBlk (R := 5000) (N := 100000) (C := 128) o h A) (shapeCast S1x128 b shapeCasts_S128_S1x128) W
      = rowBlk (R := 5000) (N := 100000) (C := 32) o h (layer A b W) := by
  unfold k1_pay1
  dsimp only
  rw [shapeCast_self, shapeCast_self, biasRow_rowBlk o h b shapeCasts_S128_S1x128 broadcasts_S1x128_S5000x128 bRow bDown,
    splat_rowBlk o h 0x00000000#32 bZero, addf_rowBlk, maximumf_rowBlk, truncf_ideal, truncf_ideal]
  exact matmul_rowBlk o h _ rfl _ rfl _ _

/-- What point t writes back is block t of the layer, when the bias buffer holds the bias vector laid out as one row. -/
theorem flushed_eq (c : Dev nD) (b : FVec Ideal ⟨1, ![128]⟩ .f32)
    (hb : (V c main_v29 : (⟨2, ![1, 128]⟩ : Shape).Idx → EReal) = shapeCast S1x128 b shapeCasts_S128_S1x128) (t : Fin cfg1.N) :
    (dat1 V c).flushed 3 t = ((cfg1.win 3).blk t).view.read (Elt Ideal) (layer (V c main_v45) b (V c main_arg4)) := by
  show (cfg1.win 3).cut (grid1.coords t) ((dat1 V c).after 3 t) = _
  rw [after1_3, stored]
  have e0 := act_block V c t
  have e1 := (bias_block V c t).trans hb
  have e2 := weight_block V c t
  have hp : k1_pay1 (F := Ideal) (iblk1 V c 0 t) (iblk1 V c 1 t) (iblk1 V c 2 t)
      = rowBlk (R := 5000) (N := 100000) (C := 32) (5000 * t.val) (rows_le t) (layer (V c main_v45) b (V c main_arg4)) := by
    rw [e0, e1, e2]
    exact payload (5000 * t.val) (rows_le t) _ b _
  funext j
  obtain ⟨-, -, -, -, -, -, e6, e7⟩ := idx t
  show k1_pay1 (F := Ideal) (iblk1 V c 0 t) (iblk1 V c 1 t) (iblk1 V c 2 t) j
    = layer (V c main_v45) b (V c main_arg4) (((cfg1.win 3).blk t).view.emb j)
  rw [hp, rowBlk_apply]
  refine congrArg (layer (V c main_v45) b (V c main_arg4)) (funext fun a => Fin.ext ?_)
  match a with
  | ⟨0, _⟩ => show 5000 * t.val + (j 0).val = win1_3.index t (0 : Fin 2) * 5000 + 1 * (j 0).val; rw [e6]; omega
  | ⟨1, _⟩ => show (j 1).val = win1_3.index t (1 : Fin 2) * 32 + 1 * (j 1).val; rw [e7]; omega

/-- An entry is in point t's block exactly when its row is among the block's rows and its column among the block's columns. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v46).slice (win1_3.rect t)).set ↔ _
  rw [View.set_slice_whole, Rect.mem_set_unit]
  exact Iff.rfl

/-- Every entry of the result lies in the block of the point its row belongs to. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  have hlt : (i 0).val / 5000 < cfg1.N := by rw [hN]; omega
  refine ⟨⟨(i 0).val / 5000, hlt⟩, flush1_3 _, ?_⟩
  rw [mem_blk]
  obtain ⟨e4, e5⟩ := idxOut ⟨(i 0).val / 5000, hlt⟩
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e4]; dsimp only; omega
  | ⟨1, _⟩ =>
    show win1_3.index ⟨(i 0).val / 5000, hlt⟩ (1 : Fin 2) * 32 ≤ (i 1).val ∧ (i 1).val < win1_3.index ⟨(i 0).val / 5000, hlt⟩ (1 : Fin 2) * 32 + 32
    rw [e5]; omega

/-- After the region the result array holds the whole layer of what the region found in its operands. -/
theorem final (c : Dev nD) (b : FVec Ideal ⟨1, ![128]⟩ .f32)
    (hb : (V c main_v29 : (⟨2, ![1, 128]⟩ : Shape).Idx → EReal) = shapeCast S1x128 b shapeCasts_S128_S1x128) :
    (dat1 V c).arrAt 3 cfg1.N = layer (V c main_v45) b (V c main_arg4) :=
  (dat1 V c).arrAt_eq_of_cover 3 (layer (V c main_v45) b (V c main_arg4)) (fun t _ => flushed_eq V c b hb t) (cover)

end Cert.KernelIdeal.Rows1

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibLogSoftmaxRow.lean ====
/-
  The logarithm of the softmax of a row of extended reals, and the two operation trees that compute it.

  For a row x the function is  x c - M - log (sum over k of exp (x k - M)),  M the maximum of the row taken
  from the least extended real.  A row-blocked kernel computes it over an [a, b] block with lane reductions kept as
  [a, 1] columns and stretched back over the lanes; the host computes it over an [n, b] array with reductions over
  axis 1, the maximum once more joined with the least element, and each reduction broadcast back in two steps.
  Both trees, read at (r, c), are the function of row r at c.  No finiteness is used: the two sides are the same
  expression of the row's entries.
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce
import proofs.«175913_j16724602651052_1_alg».proof.Proof.LibRowLayout

noncomputable section

namespace Cert.Lib.LogSoftmaxRow

open Idealize.ShloMosaic Idealize.ShloMosaic.ValueIdx Cert.KernelIdeal.MvnKernel
open scoped BigOperators

variable {a b : ℕ}

/-- The f32 pattern of minus infinity, as an extended real. -/
abbrev negInf : EReal := Ideal.ofBits .f32 0xFF800000#32

/-- The maximum of a row, folded from minus infinity. -/
def rowMax (row : Fin b → EReal) : EReal := (Finset.univ : Finset (Fin b)).fold max negInf row

/-- The logarithm of the softmax of a row, at position c. -/
def logSoftmaxRow (row : Fin b → EReal) (c : Fin b) : EReal :=
  (row c - rowMax row) - Ideal.log (∑ k : Fin b, Ideal.exp (row k - rowMax row))

/-- Minus infinity is the least extended real: joining it with anything changes nothing. -/
theorem max_negInf (y : EReal) : max negInf y = y := by
  show max (Ideal.ofBits .f32 0xFF800000#32) y = y
  simp [Ideal.ofBits, Ideal.ieee]

/-- The zero pattern is the real zero. -/
theorem zero_add_ofBits (y : EReal) : Ideal.ofBits .f32 0x00000000#32 + y = y := by
  rw [Ideal.ofBits_zero_f32, zero_add]

/-- The logarithm of a vector, read at an index. -/
theorem log_apply {s : Shape} (x : FVec Ideal s .f32) (i : s.Idx) : log x i = Ideal.log (x i) := rfl

/-! ## The kernel's tree -/

/-- The lane maximum of a block, kept as a column and stretched back over the lanes, read at (p, c). -/
theorem laneMax_apply (L : FVec Ideal ⟨2, ![a, b]⟩ .f32)
    (hr : (⟨2, ![a, b]⟩ : Shape).Reduces [1] ⟨1, ![a]⟩) (hφ : FKind.Formats .f32)
    (hacc : (0xFF800000#32 : BitVec (FTy.bits .f32)) = FKind.maximumf.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩
        (multiReduction .maximumf [1] ⟨1, ![a]⟩ L 0xFF800000#32 hr hφ hacc) hc) hb (ix2 p c)
      = rowMax (fun k => L (ix2 p k)) := by
  rw [broadcastTo_a1_ab_apply, shapeCast_a_a1_apply, multiReduction_max_row]
  rfl

/-- The lane sum of a block, kept as a column, read at (p, 0). -/
theorem laneSum_apply (E : FVec Ideal ⟨2, ![a, b]⟩ .f32)
    (hr : (⟨2, ![a, b]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ E 0x00000000#32 hr hφ hacc) hc (ix2 p u)
      = ∑ k : Fin b, E (ix2 p k) := by
  rw [shapeCast_a_a1_apply, multiReduction_add_row]

/-- THE KERNEL'S TREE over a block of logits, read at (p, c): the function of row p at c. -/
theorem kernelTree_apply (L : FVec Ideal ⟨2, ![a, b]⟩ .f32)
    (hr : (⟨2, ![a, b]⟩ : Shape).Reduces [1] ⟨1, ![a]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    subf (subf L (broadcastTo ⟨2, ![a, b]⟩ (shapeCast ⟨2, ![a, 1]⟩
          (multiReduction .maximumf [1] ⟨1, ![a]⟩ L 0xFF800000#32 hr hφ hmax) hc) hb))
        (broadcastTo ⟨2, ![a, b]⟩ (log (shapeCast ⟨2, ![a, 1]⟩
          (multiReduction .add [1] ⟨1, ![a]⟩
            (exp (subf L (broadcastTo ⟨2, ![a, b]⟩ (shapeCast ⟨2, ![a, 1]⟩
              (multiReduction .maximumf [1] ⟨1, ![a]⟩ L 0xFF800000#32 hr hφ hmax) hc) hb)))
            0x00000000#32 hr hφ hadd) hc)) hb) (ix2 p c)
      = logSoftmaxRow (fun k => L (ix2 p k)) c := by
  rw [subf_apply, subf_apply, laneMax_apply, broadcastTo_a1_ab_apply, log_apply, laneSum_apply]
  unfold logSoftmaxRow
  refine congrArg (fun s => (L (ix2 p c) - rowMax (fun k => L (ix2 p k))) - Ideal.log s) ?_
  refine Finset.sum_congr rfl fun k _ => ?_
  rw [exp_apply, subf_apply, laneMax_apply]

/-! ## The host's tree -/

variable {n : ℕ}

/-- The reduced index r with lane k put back is (r, k). -/
theorem lift_row (h : (⟨2, ![n, b]⟩ : Shape).Reduces [1] (⟨1, ![n]⟩ : Shape)) (r : Fin n)
    (k : Fin ((⟨2, ![n, b]⟩ : Shape).size 1)) : h.lift (ix1 r) k = ix2 r (⟨k.val, k.isLt⟩ : Fin b) := by
  funext d; apply Fin.ext
  fin_cases d <;> rfl

/-- The host's maximum over axis 1 from minus infinity, joined once more with minus infinity, at row r. -/
theorem hostMax_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![]) (r : Fin n) :
    maximumf (broadcastInDim ⟨1, ![n]⟩ ![] hs (constant (F := Ideal) ⟨0, ![]⟩ .f32 0xFF800000#32))
        (Host.reduce FloatOps.maximumf L (constant (F := Ideal) ⟨0, ![]⟩ .f32 0xFF800000#32) h' hu) (ix1 r)
      = rowMax (fun k => L (ix2 r k)) := by
  rw [maximumf_apply, broadcastInDim_apply ![] hs _ (ix1 r) ix0 (fun d => d.elim0),
    Host.reduce_eq_fold_single FloatOps.maximumf L _ h' h hu]
  show max negInf ((Finset.univ : Finset (Fin b)).fold max negInf (L ∘ h.lift (ix1 r))) = _
  rw [max_negInf]
  unfold rowMax
  exact congrArg (fun f => (Finset.univ : Finset (Fin b)).fold max negInf f)
    (funext fun k => congrArg L (lift_row h r k))

/-- A vector laid out as an [n, 1] column by the host, read at (r, u): the vector at r. -/
theorem hostColumn_apply {α : Type} (v : (⟨1, ![n]⟩ : Shape).Idx → α)
    (h0 : (⟨1, ![n]⟩ : Shape).BroadcastsInDim ⟨2, ![n, 1]⟩ ![0]) (r : Fin n) (u : Fin 1) :
    broadcastInDim ⟨2, ![n, 1]⟩ ![0] h0 v (ix2 r u) = v (ix1 r) := by
  refine broadcastInDim_apply ![0] h0 v (ix2 r u) (ix1 r) (fun d => ?_)
  match d with
  | ⟨0, _⟩ =>
    show r.val = if n = 1 then 0 else r.val
    have hlt : r.val < n := r.isLt
    split_ifs with hn
    · omega
    · rfl

/-- An [n, 1] column stretched over b lanes by the host, read at (r, c): the column at row r. -/
theorem hostStretchColumn_apply {α : Type} (v : (⟨2, ![n, 1]⟩ : Shape).Idx → α)
    (h01 : (⟨2, ![n, 1]⟩ : Shape).BroadcastsInDim ⟨2, ![n, b]⟩ ![0, 1]) (r : Fin n) (c : Fin b) :
    broadcastInDim ⟨2, ![n, b]⟩ ![0, 1] h01 v (ix2 r c) = v (ix2 r (0 : Fin 1)) := by
  refine broadcastInDim_apply ![0, 1] h01 v (ix2 r c) (ix2 r (0 : Fin 1)) (fun d => ?_)
  match d with
  | ⟨0, _⟩ =>
    show r.val = if n = 1 then 0 else r.val
    have hlt : r.val < n := r.isLt
    split_ifs with hn
    · omega
    · rfl
  | ⟨1, _⟩ => exact (if_pos rfl).symm

/-- The host's sum over axis 1 from the zero pattern, at row r: the sum of the row's entries. -/
theorem hostSum_apply (E : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel) (r : Fin n) :
    Host.reduceAdd E (constant (F := Ideal) ⟨0, ![]⟩ .f32 0x00000000#32) h' hu (ix1 r) = ∑ k : Fin b, E (ix2 r k) := by
  simp only [Host.reduceAdd, Ideal.hostReduceAdd_def]
  rw [Ideal.hostReduceAdd_single h' h]
  show Ideal.ofBits .f32 0x00000000#32 + _ = _
  rw [zero_add_ofBits]
  exact Finset.sum_congr rfl fun k _ => congrArg E (lift_row h r k)

/-- The host's row maximum laid out as a column and stretched over the lanes, read at (r, c). -/
theorem hostMaxColumn_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    broadcastInDim ⟨2, ![n, b]⟩ ![0, 1] h01 (broadcastInDim ⟨2, ![n, 1]⟩ ![0] h0
        (maximumf (broadcastInDim ⟨1, ![n]⟩ ![] hs (constant (F := Ideal) ⟨0, ![]⟩ .f32 0xFF800000#32))
          (Host.reduce FloatOps.maximumf L (constant (F := Ideal) ⟨0, ![]⟩ .f32 0xFF800000#32) h' hu))) (ix2 r c)
      = rowMax (fun k => L (ix2 r k)) := by
  rw [hostStretchColumn_apply, hostColumn_apply, hostMax_apply L h' h hu hs r]

/-- The host's logarithm and exponential of a vector, read at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- THE HOST'S TREE over an array of logits, read at (r, c): the function of row r at c. -/
theorem hostTree_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    subf (subf L (broadcastInDim ⟨2, ![n, b]⟩ ![0, 1] h01 (broadcastInDim ⟨2, ![n, 1]⟩ ![0] h0
          (maximumf (broadcastInDim ⟨1, ![n]⟩ ![] hs (constant (F := Ideal) ⟨0, ![]⟩ .f32 0xFF800000#32))
            (Host.reduce FloatOps.maximumf L (constant (F := Ideal) ⟨0, ![]⟩ .f32 0xFF800000#32) h' hu)))))
        (broadcastInDim ⟨2, ![n, b]⟩ ![0, 1] h01 (Host.log (broadcastInDim ⟨2, ![n, 1]⟩ ![0] h0
          (Host.reduceAdd
            (Host.exp (subf L (broadcastInDim ⟨2, ![n, b]⟩ ![0, 1] h01 (broadcastInDim ⟨2, ![n, 1]⟩ ![0] h0
              (maximumf (broadcastInDim ⟨1, ![n]⟩ ![] hs (constant (F := Ideal) ⟨0, ![]⟩ .f32 0xFF800000#32))
                (Host.reduce FloatOps.maximumf L (constant (F := Ideal) ⟨0, ![]⟩ .f32 0xFF800000#32) h' hu))))))
            (constant (F := Ideal) ⟨0, ![]⟩ .f32 0x00000000#32) h' hu)))) (ix2 r c)
      = logSoftmaxRow (fun k => L (ix2 r k)) c := by
  rw [subf_apply, subf_apply, hostMaxColumn_apply L h' h hu hs h0 h01 r c, hostStretchColumn_apply, hostLog_apply,
    hostColumn_apply, hostSum_apply _ h' h hu r]
  unfold logSoftmaxRow
  refine congrArg (fun s => (L (ix2 r c) - rowMax (fun k => L (ix2 r k))) - Ideal.log s) ?_
  refine Finset.sum_congr rfl fun k _ => ?_
  rw [hostExp_apply, subf_apply, hostMaxColumn_apply L h' h hu hs h0 h01 r k]

end Cert.Lib.LogSoftmaxRow

end
-- ==== Proof.Region2.lean ====
/-
  The second bias and the logarithm of the softmax, computed in twenty blocks of 5000 rows.

  Grid point t loads rows 5000·t … 5000·t + 4999 of the aggregated scores and the bias as one row, adds the bias row
  to every row, and replaces every row by the logarithm of its softmax: the row minus its maximum, minus the logarithm
  of the sum of the exponentials of that difference.  The function acts on each row by itself, so the block
  computation read at (p, q) is the whole-array computation read at (5000·t + p, q), and the twenty blocks tile the
  100000 rows.
-/
import proofs.«175913_j16724602651052_1_alg».proof.Proof.Gen.KernelIdeal.Frame
import proofs.«175913_j16724602651052_1_alg».proof.Proof.LibBlockOfWhole
import proofs.«175913_j16724602651052_1_alg».proof.Proof.LibLogSoftmaxRow
import Idealize.ShloMosaic.Lib.Pipeline.Value

noncomputable section

open Idealize.ShloMosaic Idealize.ShloMosaic.TcCoe Idealize.SL.Sem
open Idealize.ShloMosaic.Pipeline (Dat)

namespace Cert.KernelIdeal.Rows2

open Cert.KernelIdeal Cert.KernelIdeal.Gen Cert.Blocks Cert.Lib.LogSoftmaxRow Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, the bias at the origin. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem idxOut (t : Fin cfg2.N) : win2_2.index t (0 : Fin 2) = t.val ∧ win2_2.index t (1 : Fin 2) = 0 := by
  obtain ⟨-, -, -, -, e4, e5⟩ := idx t
  exact ⟨e4, e5⟩

theorem rows_le (t : Fin cfg2.N) : 5000 * t.val + 5000 ≤ 100000 := by
  have h : t.val < 20 := lt_of_lt_of_eq t.isLt N_2
  omega

theorem bRow : (⟨1, ![32]⟩ : Shape).BroadcastsInDim ⟨2, ![1, 32]⟩ ![1] := by decide
theorem bDown : (⟨2, ![1, 32]⟩ : Shape).BroadcastsInDim ⟨2, ![100000, 32]⟩ ![0, 1] := by decide
theorem rTo : (⟨2, ![100000, 32]⟩ : Shape).ReducesTo [1] (⟨1, ![100000]⟩ : Shape) := by decide
theorem rRed : (⟨2, ![100000, 32]⟩ : Shape).Reduces [1] (⟨1, ![100000]⟩ : Shape) := by decide
theorem hOne : 0 < (⟨0, ![]⟩ : Shape).numel := by decide
theorem bSplat : (⟨0, ![]⟩ : Shape).BroadcastsInDim ⟨1, ![100000]⟩ ![] := by decide
theorem bCol : (⟨1, ![100000]⟩ : Shape).BroadcastsInDim ⟨2, ![100000, 1]⟩ ![0] := by decide
theorem bAcross : (⟨2, ![100000, 1]⟩ : Shape).BroadcastsInDim ⟨2, ![100000, 32]⟩ ![0, 1] := by decide

/-- The scores with the bias vector laid out as a row, stretched down the rows and added. -/
def biased (A : FVec Ideal ⟨2, ![100000, 32]⟩ .f32) (b : FVec Ideal ⟨1, ![32]⟩ .f32) : FVec Ideal ⟨2, ![100000, 32]⟩ .f32 :=
  addf A (broadcastInDim ⟨2, ![100000, 32]⟩ ![0, 1] bDown (broadcastInDim ⟨2, ![1, 32]⟩ ![1] bRow b))

/-- The logarithm of the softmax of every row, as the host spells it. -/
def logSm (L : FVec Ideal ⟨2, ![100000, 32]⟩ .f32) : FVec Ideal ⟨2, ![100000, 32]⟩ .f32 :=
  subf (subf L (broadcastInDim ⟨2, ![100000, 32]⟩ ![0, 1] bAcross (broadcastInDim ⟨2, ![100000, 1]⟩ ![0] bCol
      (maximumf (broadcastInDim ⟨1, ![100000]⟩ ![] bSplat (constant (F := Ideal) ⟨0, ![]⟩ .f32 0xFF800000#32))
        (Host.reduce FloatOps.maximumf L (constant (F := Ideal) ⟨0, ![]⟩ .f32 0xFF800000#32) rTo hOne)))))
    (broadcastInDim ⟨2, ![100000, 32]⟩ ![0, 1] bAcross (Host.log (broadcastInDim ⟨2, ![100000, 1]⟩ ![0] bCol
      (Host.reduceAdd
        (Host.exp (subf L (broadcastInDim ⟨2, ![100000, 32]⟩ ![0, 1] bAcross (broadcastInDim ⟨2, ![100000, 1]⟩ ![0] bCol
          (maximumf (broadcastInDim ⟨1, ![100000]⟩ ![] bSplat (constant (F := Ideal) ⟨0, ![]⟩ .f32 0xFF800000#32))
            (Host.reduce FloatOps.maximumf L (constant (F := Ideal) ⟨0, ![]⟩ .f32 0xFF800000#32) rTo hOne))))))
        (constant (F := Ideal) ⟨0, ![]⟩ .f32 0x00000000#32) rTo hOne))))

/-- The block of scores at point t is rows 5000·t … of the array. -/
theorem score_block (c : Dev nD) (t : Fin cfg2.N) :
    (iblk2 V c 0 t : (⟨2, ![5000, 32]⟩ : Shape).Idx → EReal)
      = rowBlk (R := 5000) (N := 100000) (C := 32) (5000 * t.val) (rows_le t) (V c main_v60) := by
  funext y
  obtain ⟨e0, e1, -⟩ := idx t
  show V c main_v60 (((cfg2.win 0).blk t).view.emb y) = V c main_v60 (shiftRow (5000 * t.val) (rows_le t) y)
  refine congrArg (V c main_v60) (funext fun a => Fin.ext ?_)
  match a with
  | ⟨0, _⟩ => show win2_0.index t (0 : Fin 2) * 5000 + 1 * (y 0).val = 5000 * t.val + (y 0).val; rw [e0]; omega
  | ⟨1, _⟩ => show win2_0.index t (1 : Fin 2) * 32 + 1 * (y 1).val = (y 1).val; rw [e1]; omega

/-- The bias row's block at every point is the whole row. -/
theorem bias_block (c : Dev nD) (t : Fin cfg2.N) :
    (iblk2 V c 1 t : (⟨2, ![1, 32]⟩ : Shape).Idx → EReal) = V c main_v30 := by
  funext y
  obtain ⟨-, -, e2, e3, -⟩ := idx t
  show V c main_v30 (((cfg2.win 1).blk t).view.emb y) = V c main_v30 y
  refine congrArg (V c main_v30) (funext fun a => Fin.ext ?_)
  match a with
  | ⟨0, _⟩ => show win2_1.index t (0 : Fin 2) * 1 + 1 * (y 0).val = (y 0).val; rw [e2]; omega
  | ⟨1, _⟩ => show win2_1.index t (1 : Fin 2) * 32 + 1 * (y 1).val = (y 1).val; rw [e3]; omega

/-- What the body stores is its arithmetic of the two loaded blocks. -/
theorem stored (x0 : Vec Ideal S5000x32 .f32) (x1 : Vec Ideal S1x32 .f32) : out2_2 x0 x1 = k2_pay1 x0 x1 := by
  unfold out2_2
  rw [View.canon_unit_zero hz]
  simp only [View.ld_unit_zero (S := S5000x32) hz, View.ld_unit_zero (S := S1x32) hz]

/-- The body's arithmetic on a row block, the bias given as a vector laid out as one row, read at (p, q): the
    whole-array computation read at (o + p, q). -/
theorem payload (o : Nat) (h : o + 5000 ≤ 100000) (A : FVec Ideal ⟨2, ![100000, 32]⟩ .f32) (b : FVec Ideal ⟨1, ![32]⟩ .f32)
    (p : Fin 5000) (q : Fin 32) :
    k2_pay1 (F := Ideal) (rowBlk (R := 5000) (N := 100000) (C := 32) o h A) (shapeCast S1x32 b shapeCasts_S32_S1x32) (ix2 p q)
      = logSm (biased A b) (ix2 (⟨o + p.val, by have := p.isLt; omega⟩ : Fin 100000) q) := by
  unfold k2_pay1
  dsimp only
  rw [shapeCast_self, shapeCast_self, biasRow_rowBlk o h b shapeCasts_S32_S1x32 broadcasts_S1x32_S5000x32 bRow bDown, addf_rowBlk]
  refine (kernelTree_apply (rowBlk (R := 5000) (N := 100000) (C := 32) o h (biased A b)) reduces_S5000x32_S5000 (.inl rfl) rfl rfl
    shapeCasts_S5000_S5000x1 broadcasts_S5000x1_S5000x32 p q).trans ?_
  unfold logSm
  rw [hostTree_apply (biased A b) rTo rRed hOne bSplat bCol bAcross (⟨o + p.val, by have := p.isLt; omega⟩ : Fin 100000) q]
  refine congrArg (fun row => logSoftmaxRow row q) (funext fun k => ?_)
  rw [rowBlk_apply]
  exact congrArg (biased A b) (funext fun a => Fin.ext (by match a with | ⟨0, _⟩ => rfl | ⟨1, _⟩ => rfl))

/-- What point t writes back is block t of the whole-array computation, when the bias buffer holds the bias vector laid
    out as one row. -/
theorem flushed_eq (c : Dev nD) (b : FVec Ideal ⟨1, ![32]⟩ .f32)
    (hb : (V c main_v30 : (⟨2, ![1, 32]⟩ : Shape).Idx → EReal) = shapeCast S1x32 b shapeCasts_S32_S1x32) (t : Fin cfg2.N) :
    (dat2 V c).flushed 2 t = ((cfg2.win 2).blk t).view.read (Elt Ideal) (logSm (biased (V c main_v60) b)) := by
  show (cfg2.win 2).cut (grid2.coords t) ((dat2 V c).after 2 t) = _
  rw [after2_2, stored]
  have e0 := score_block V c t
  have e1 := (bias_block V c t).trans hb
  funext j
  obtain ⟨p, q, rfl⟩ : ∃ (p : Fin 5000) (q : Fin 32), j = ix2 p q := ⟨j 0, j 1, eq_ix2 j⟩
  obtain ⟨-, -, -, -, e4, e5⟩ := idx t
  show k2_pay1 (F := Ideal) (iblk2 V c 0 t) (iblk2 V c 1 t) (ix2 p q)
    = logSm (biased (V c main_v60) b) (((cfg2.win 2).blk t).view.emb (ix2 p q))
  rw [e0, e1, payload (5000 * t.val) (rows_le t) _ b p q]
  refine congrArg (logSm (biased (V c main_v60) b)) (funext fun a => Fin.ext ?_)
  match a with
  | ⟨0, _⟩ => show 5000 * t.val + p.val = win2_2.index t (0 : Fin 2) * 5000 + 1 * p.val; rw [e4]; omega
  | ⟨1, _⟩ => show q.val = win2_2.index t (1 : Fin 2) * 32 + 1 * q.val; rw [e5]; omega

/-- An entry is in point t's block exactly when its row is among the block's rows and its column among the block's columns. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v61).slice (win2_2.rect t)).set ↔ _
  rw [View.set_slice_whole, Rect.mem_set_unit]
  exact Iff.rfl

/-- Every entry of the result lies in the block of the point its row belongs to. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  have hlt : (i 0).val / 5000 < cfg2.N := by rw [hN]; omega
  refine ⟨⟨(i 0).val / 5000, hlt⟩, flush2_2 _, ?_⟩
  rw [mem_blk]
  obtain ⟨e4, e5⟩ := idxOut ⟨(i 0).val / 5000, hlt⟩
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; dsimp only; omega
  | ⟨1, _⟩ =>
    show win2_2.index ⟨(i 0).val / 5000, hlt⟩ (1 : Fin 2) * 32 ≤ (i 1).val ∧ (i 1).val < win2_2.index ⟨(i 0).val / 5000, hlt⟩ (1 : Fin 2) * 32 + 32
    rw [e5]; omega

/-- After the region the result array holds the logarithm of the softmax of the biased scores the region found. -/
theorem final (c : Dev nD) (b : FVec Ideal ⟨1, ![32]⟩ .f32)
    (hb : (V c main_v30 : (⟨2, ![1, 32]⟩ : Shape).Idx → EReal) = shapeCast S1x32 b shapeCasts_S32_S1x32) :
    (dat2 V c).arrAt 2 cfg2.N = logSm (biased (V c main_v60) b) :=
  (dat2 V c).arrAt_eq_of_cover 2 (logSm (biased (V c main_v60) b)) (fun t _ => flushed_eq V c b hb t) (cover)

end Cert.KernelIdeal.Rows2

end
-- ==== Proof.Boundary.lean ====
/-
  The buffer contents at the boundaries between the program's segments.

  The host stretch before the first kernel computes, from the edge list alone, the source and target lists with the
  self loops, and each edge's source and target factors; it lays the two bias vectors out as rows.  Nothing later
  writes those buffers, nor the weights, so every later segment finds them as that stretch left them.  The stretch
  after the first kernel gathers, scales and scatter-adds the kernel's result along the edges; the stretch after the
  second kernel does the same to the second kernel's result.  Read through the fold of the segments, each kernel's
  operands are therefore the network's own intermediate arrays.
-/
import proofs.«175913_j16724602651052_1_alg».proof.Proof.Gen.KernelIdeal.Frame
import proofs.«175913_j16724602651052_1_alg».proof.Proof.Spec
import Idealize.ShloMosaic.Lib.StableHlo.Run
import proofs.«175913_j16724602651052_1_alg».proof.Proof.LibJoinCongr

set_option maxRecDepth 16384

noncomputable section

namespace Cert.KernelIdeal.Boundary

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

attribute [local congr] Cert.Lib.JoinCongr.concatenate_pair_congr

/-- A buffer after a host stretch: at its own result buffer an operation leaves its function's value of its operands, at every
    other buffer what was there. -/
macro "through_stretch" : tactic =>
  `(tactic| (dsimp only [W5, W7, hostOps1, hostOps2]; after_results_simp))

/-- The same after the first stretch, from the launch memory. -/
macro "first_stretch" : tactic =>
  `(tactic| (dsimp only [W1, hostOps0]; after_results_simp))

/-- The same after the node factors' call and the stretch that follows it, from any contents. -/
macro "second_stretch" : tactic =>
  `(tactic| (dsimp only [hostOps0_1, hostOps0_2]; after_results_simp))

/-! ## The first host stretch: the edge lists with self loops, the degree's sign flag and inverse square root -/

theorem src1 : W1 m ρ c (Proc.devRef .tc main_v3) = Cert.Gcn.srcIdx (m ((c : Thread nD τ).loc main_arg1)) := by
  first_stretch
  unfold Cert.Gcn.srcIdx
  exact rfl
theorem dst1 : W1 m ρ c (Proc.devRef .tc main_v6) = Cert.Gcn.dstIdx (m ((c : Thread nD τ).loc main_arg1)) := by
  first_stretch
  unfold Cert.Gcn.dstIdx
  exact rfl
theorem pos1 : W1 m ρ c (Proc.devRef .tc main_v12) = Cert.Gcn.degPos (m ((c : Thread nD τ).loc main_arg1)) := by
  first_stretch
  unfold Cert.Gcn.degPos Cert.Gcn.deg Cert.Gcn.degOf Cert.Gcn.dstIdx
  exact rfl
theorem rsq1 : W1 m ρ c (Proc.devRef .tc main_v13) = Cert.Gcn.degRsqrt (m ((c : Thread nD τ).loc main_arg1)) := by
  first_stretch
  unfold Cert.Gcn.degRsqrt Cert.Gcn.deg Cert.Gcn.degOf Cert.Gcn.dstIdx
  exact rfl
theorem zero1 : W1 m ρ c (Proc.devRef .tc main_cst_2) = constant (F := Ideal) Cert.ReferenceIdeal.S_ .f32 0x00000000#32 := by
  first_stretch <;> exact rfl
theorem x1 : W1 m ρ c (Proc.devRef .tc main_arg0) = m ((c : Thread nD τ).loc main_arg0) := by
  first_stretch <;> exact rfl
theorem w1_1 : W1 m ρ c (Proc.devRef .tc main_arg2) = m ((c : Thread nD τ).loc main_arg2) := by
  first_stretch <;> exact rfl
theorem b1_1 : W1 m ρ c (Proc.devRef .tc main_arg3) = m ((c : Thread nD τ).loc main_arg3) := by
  first_stretch <;> exact rfl
theorem w2_1 : W1 m ρ c (Proc.devRef .tc main_arg4) = m ((c : Thread nD τ).loc main_arg4) := by
  first_stretch <;> exact rfl
theorem b2_1 : W1 m ρ c (Proc.devRef .tc main_arg5) = m ((c : Thread nD τ).loc main_arg5) := by
  first_stretch <;> exact rfl

/-! ## The node factors' call and the stretch after it, from any contents -/

section FromAny
variable (U : Valuation τ sig (Elt Ideal))

theorem nsrc_from : StableHlo.after hostOps0_2 (StableHlo.after hostOps0_1 U) (Proc.devRef .tc main_v21)
    = Cert.Gcn.fac (Cert.Gcn.pick (U (Proc.devRef .tc main_v12)) (U (Proc.devRef .tc main_v13)) (U (Proc.devRef .tc main_cst_2))) (U (Proc.devRef .tc main_v3)) := by
  second_stretch
  unfold Cert.Gcn.fac Cert.Gcn.pick Cert.Gcn.wrap
  exact rfl
theorem ndst_from : StableHlo.after hostOps0_2 (StableHlo.after hostOps0_1 U) (Proc.devRef .tc main_v28)
    = Cert.Gcn.fac (Cert.Gcn.pick (U (Proc.devRef .tc main_v12)) (U (Proc.devRef .tc main_v13)) (U (Proc.devRef .tc main_cst_2))) (U (Proc.devRef .tc main_v6)) := by
  second_stretch
  unfold Cert.Gcn.fac Cert.Gcn.pick Cert.Gcn.wrap
  exact rfl
theorem bias1_from : StableHlo.after hostOps0_2 (StableHlo.after hostOps0_1 U) (Proc.devRef .tc main_v29)
    = shapeCast S1x128 (U (Proc.devRef .tc main_arg3)) shapeCasts_S128_S1x128 := by
  second_stretch <;> exact rfl
theorem bias2_from : StableHlo.after hostOps0_2 (StableHlo.after hostOps0_1 U) (Proc.devRef .tc main_v30)
    = shapeCast S1x32 (U (Proc.devRef .tc main_arg5)) shapeCasts_S32_S1x32 := by
  second_stretch <;> exact rfl
theorem keep_main_v3 : StableHlo.after hostOps0_2 (StableHlo.after hostOps0_1 U) (Proc.devRef .tc main_v3) = U (Proc.devRef .tc main_v3) := by
  second_stretch <;> exact rfl
theorem keep_main_v6 : StableHlo.after hostOps0_2 (StableHlo.after hostOps0_1 U) (Proc.devRef .tc main_v6) = U (Proc.devRef .tc main_v6) := by
  second_stretch <;> exact rfl
theorem keep_main_arg0 : StableHlo.after hostOps0_2 (StableHlo.after hostOps0_1 U) (Proc.devRef .tc main_arg0) = U (Proc.devRef .tc main_arg0) := by
  second_stretch <;> exact rfl
theorem keep_main_arg2 : StableHlo.after hostOps0_2 (StableHlo.after hostOps0_1 U) (Proc.devRef .tc main_arg2) = U (Proc.devRef .tc main_arg2) := by
  second_stretch <;> exact rfl
theorem keep_main_arg4 : StableHlo.after hostOps0_2 (StableHlo.after hostOps0_1 U) (Proc.devRef .tc main_arg4) = U (Proc.devRef .tc main_arg4) := by
  second_stretch <;> exact rfl

end FromAny

/-! ## Before the first kernel -/

theorem src3 : W3 m ρ c (Proc.devRef .tc main_v3) = Cert.Gcn.srcIdx (m ((c : Thread nD τ).loc main_arg1)) :=
  (keep_main_v3 (W1 m ρ c)).trans (src1 m ρ c)
theorem dst3 : W3 m ρ c (Proc.devRef .tc main_v6) = Cert.Gcn.dstIdx (m ((c : Thread nD τ).loc main_arg1)) :=
  (keep_main_v6 (W1 m ρ c)).trans (dst1 m ρ c)
theorem nsrc3 : W3 m ρ c (Proc.devRef .tc main_v21) = Cert.Gcn.nsrc (m ((c : Thread nD τ).loc main_arg1)) := by
  refine (nsrc_from (W1 m ρ c)).trans ?_
  rw [pos1 m ρ c, rsq1 m ρ c, zero1 m ρ c, src1 m ρ c]
  rfl
theorem ndst3 : W3 m ρ c (Proc.devRef .tc main_v28) = Cert.Gcn.ndst (m ((c : Thread nD τ).loc main_arg1)) := by
  refine (ndst_from (W1 m ρ c)).trans ?_
  rw [pos1 m ρ c, rsq1 m ρ c, zero1 m ρ c, dst1 m ρ c]
  rfl
theorem bias1_3 : W3 m ρ c (Proc.devRef .tc main_v29) = shapeCast S1x128 (m ((c : Thread nD τ).loc main_arg3)) shapeCasts_S128_S1x128 := by
  refine (bias1_from (W1 m ρ c)).trans ?_
  rw [b1_1 m ρ c]
theorem bias2_3 : W3 m ρ c (Proc.devRef .tc main_v30) = shapeCast S1x32 (m ((c : Thread nD τ).loc main_arg5)) shapeCasts_S32_S1x32 := by
  refine (bias2_from (W1 m ρ c)).trans ?_
  rw [b2_1 m ρ c]
theorem x3 : W3 m ρ c (Proc.devRef .tc main_arg0) = m ((c : Thread nD τ).loc main_arg0) :=
  (keep_main_arg0 (W1 m ρ c)).trans (x1 m ρ c)
theorem w1_3 : W3 m ρ c (Proc.devRef .tc main_arg2) = m ((c : Thread nD τ).loc main_arg2) :=
  (keep_main_arg2 (W1 m ρ c)).trans (w1_1 m ρ c)
theorem w2_3 : W3 m ρ c (Proc.devRef .tc main_arg4) = m ((c : Thread nD τ).loc main_arg4) :=
  (keep_main_arg4 (W1 m ρ c)).trans (w2_1 m ρ c)

/-! ## After the first kernel -/

theorem src4 : W4 m ρ c (Proc.devRef .tc main_v3) = Cert.Gcn.srcIdx (m ((c : Thread nD τ).loc main_arg1)) :=
  (W4_of_ne m ρ c main_v3 (by decide)).trans (src3 m ρ c)
theorem dst4 : W4 m ρ c (Proc.devRef .tc main_v6) = Cert.Gcn.dstIdx (m ((c : Thread nD τ).loc main_arg1)) :=
  (W4_of_ne m ρ c main_v6 (by decide)).trans (dst3 m ρ c)
theorem nsrc4 : W4 m ρ c (Proc.devRef .tc main_v21) = Cert.Gcn.nsrc (m ((c : Thread nD τ).loc main_arg1)) :=
  (W4_of_ne m ρ c main_v21 (by decide)).trans (nsrc3 m ρ c)
theorem ndst4 : W4 m ρ c (Proc.devRef .tc main_v28) = Cert.Gcn.ndst (m ((c : Thread nD τ).loc main_arg1)) :=
  (W4_of_ne m ρ c main_v28 (by decide)).trans (ndst3 m ρ c)
theorem bias1_4 : W4 m ρ c (Proc.devRef .tc main_v29) = shapeCast S1x128 (m ((c : Thread nD τ).loc main_arg3)) shapeCasts_S128_S1x128 :=
  (W4_of_ne m ρ c main_v29 (by decide)).trans (bias1_3 m ρ c)
theorem bias2_4 : W4 m ρ c (Proc.devRef .tc main_v30) = shapeCast S1x32 (m ((c : Thread nD τ).loc main_arg5)) shapeCasts_S32_S1x32 :=
  (W4_of_ne m ρ c main_v30 (by decide)).trans (bias2_3 m ρ c)
theorem w2_4 : W4 m ρ c (Proc.devRef .tc main_arg4) = m ((c : Thread nD τ).loc main_arg4) :=
  (W4_of_ne m ρ c main_arg4 (by decide)).trans (w2_3 m ρ c)

/-! ## Before the second kernel -/

theorem src5 : W5 m ρ c (Proc.devRef .tc main_v3) = Cert.Gcn.srcIdx (m ((c : Thread nD τ).loc main_arg1)) :=
  (by through_stretch : W5 m ρ c (Proc.devRef .tc main_v3) = W4 m ρ c (Proc.devRef .tc main_v3)).trans (src4 m ρ c)
theorem dst5 : W5 m ρ c (Proc.devRef .tc main_v6) = Cert.Gcn.dstIdx (m ((c : Thread nD τ).loc main_arg1)) :=
  (by through_stretch : W5 m ρ c (Proc.devRef .tc main_v6) = W4 m ρ c (Proc.devRef .tc main_v6)).trans (dst4 m ρ c)
theorem nsrc5 : W5 m ρ c (Proc.devRef .tc main_v21) = Cert.Gcn.nsrc (m ((c : Thread nD τ).loc main_arg1)) :=
  (by through_stretch : W5 m ρ c (Proc.devRef .tc main_v21) = W4 m ρ c (Proc.devRef .tc main_v21)).trans (nsrc4 m ρ c)
theorem ndst5 : W5 m ρ c (Proc.devRef .tc main_v28) = Cert.Gcn.ndst (m ((c : Thread nD τ).loc main_arg1)) :=
  (by through_stretch : W5 m ρ c (Proc.devRef .tc main_v28) = W4 m ρ c (Proc.devRef .tc main_v28)).trans (ndst4 m ρ c)
theorem bias1_5 : W5 m ρ c (Proc.devRef .tc main_v29) = shapeCast S1x128 (m ((c : Thread nD τ).loc main_arg3)) shapeCasts_S128_S1x128 :=
  (by through_stretch : W5 m ρ c (Proc.devRef .tc main_v29) = W4 m ρ c (Proc.devRef .tc main_v29)).trans (bias1_4 m ρ c)
theorem bias2_5 : W5 m ρ c (Proc.devRef .tc main_v30) = shapeCast S1x32 (m ((c : Thread nD τ).loc main_arg5)) shapeCasts_S32_S1x32 :=
  (by through_stretch : W5 m ρ c (Proc.devRef .tc main_v30) = W4 m ρ c (Proc.devRef .tc main_v30)).trans (bias2_4 m ρ c)
theorem w2_5 : W5 m ρ c (Proc.devRef .tc main_arg4) = m ((c : Thread nD τ).loc main_arg4) :=
  (by through_stretch : W5 m ρ c (Proc.devRef .tc main_arg4) = W4 m ρ c (Proc.devRef .tc main_arg4)).trans (w2_4 m ρ c)

/-- The second kernel's row operand: the first kernel's result aggregated along the edges. -/
theorem agg5 : W5 m ρ c (Proc.devRef .tc main_v45)
    = Cert.Gcn.agg128 (W4 m ρ c (Proc.devRef .tc main_v31)) (m ((c : Thread nD τ).loc main_arg1)) := by
  through_stretch
  rw [src4 m ρ c, dst4 m ρ c, nsrc4 m ρ c, ndst4 m ρ c]
  rfl

/-! ## After the second kernel -/

theorem src6 : W6 m ρ c (Proc.devRef .tc main_v3) = Cert.Gcn.srcIdx (m ((c : Thread nD τ).loc main_arg1)) :=
  (W6_of_ne m ρ c main_v3 (by decide)).trans (src5 m ρ c)
theorem dst6 : W6 m ρ c (Proc.devRef .tc main_v6) = Cert.Gcn.dstIdx (m ((c : Thread nD τ).loc main_arg1)) :=
  (W6_of_ne m ρ c main_v6 (by decide)).trans (dst5 m ρ c)
theorem nsrc6 : W6 m ρ c (Proc.devRef .tc main_v21) = Cert.Gcn.nsrc (m ((c : Thread nD τ).loc main_arg1)) :=
  (W6_of_ne m ρ c main_v21 (by decide)).trans (nsrc5 m ρ c)
theorem ndst6 : W6 m ρ c (Proc.devRef .tc main_v28) = Cert.Gcn.ndst (m ((c : Thread nD τ).loc main_arg1)) :=
  (W6_of_ne m ρ c main_v28 (by decide)).trans (ndst5 m ρ c)
theorem bias2_6 : W6 m ρ c (Proc.devRef .tc main_v30) = shapeCast S1x32 (m ((c : Thread nD τ).loc main_arg5)) shapeCasts_S32_S1x32 :=
  (W6_of_ne m ρ c main_v30 (by decide)).trans (bias2_5 m ρ c)

/-! ## Before the third kernel -/

theorem bias2_7 : W7 m ρ c (Proc.devRef .tc main_v30) = shapeCast S1x32 (m ((c : Thread nD τ).loc main_arg5)) shapeCasts_S32_S1x32 :=
  (by through_stretch : W7 m ρ c (Proc.devRef .tc main_v30) = W6 m ρ c (Proc.devRef .tc main_v30)).trans (bias2_6 m ρ c)

/-- The third kernel's row operand: the second kernel's result aggregated along the edges. -/
theorem agg7 : W7 m ρ c (Proc.devRef .tc main_v60)
    = Cert.Gcn.agg32 (W6 m ρ c (Proc.devRef .tc main_v46)) (m ((c : Thread nD τ).loc main_arg1)) := by
  through_stretch
  rw [src6 m ρ c, dst6 m ρ c, nsrc6 m ρ c, ndst6 m ρ c]
  rfl

end Cert.KernelIdeal.Boundary

end
-- ==== Proof.Whole.lean ====
/-
  The kernel program's result is the network's function of its six arguments.

  Reading the fold of the segments from the end: the result buffer is the third kernel's output array, which is the
  logarithm of the softmax of the biased second aggregation; the second aggregation is taken of the second kernel's
  output array, which is the rectified, biased first aggregation times the second weights; the first aggregation is
  taken of the first kernel's output array, which is the features times the first weights.  Each kernel's operands
  are what the boundary lemmas say, and the composition is the network, operation by operation.
-/
import proofs.«175913_j16724602651052_1_alg».proof.Proof.Gen.KernelIdeal.Frame
import proofs.«175913_j16724602651052_1_alg».proof.Proof.Region0
import proofs.«175913_j16724602651052_1_alg».proof.Proof.Region1
import proofs.«175913_j16724602651052_1_alg».proof.Proof.Region2
import proofs.«175913_j16724602651052_1_alg».proof.Proof.Boundary
import proofs.«175913_j16724602651052_1_alg».proof.Proof.Spec

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The first kernel's output array: the first projection. -/
theorem first : W4 m ρ c (Proc.devRef .tc main_v31) = Cert.Gcn.proj1 (m ((c : Thread nD τ).loc main_arg0)) (m ((c : Thread nD τ).loc main_arg2)) := by
  refine (W4_arr m ρ c 2).trans ?_
  refine (Rows0.final (V3 m ρ) c).trans ?_
  show Rows0.prod (W3 m ρ c (Proc.devRef .tc main_arg0)) (W3 m ρ c (Proc.devRef .tc main_arg2)) = _
  rw [Boundary.x3 m ρ c, Boundary.w1_3 m ρ c]
  rfl

/-- The second kernel's output array: the second projection of the hidden layer. -/
theorem second : W6 m ρ c (Proc.devRef .tc main_v46)
    = Cert.Gcn.proj2 (Cert.Gcn.hidden (Cert.Gcn.agg128 (Cert.Gcn.proj1 (m ((c : Thread nD τ).loc main_arg0)) (m ((c : Thread nD τ).loc main_arg2))) (m ((c : Thread nD τ).loc main_arg1))) (m ((c : Thread nD τ).loc main_arg3))) (m ((c : Thread nD τ).loc main_arg4)) := by
  refine (W6_arr m ρ c 3).trans ?_
  refine (Rows1.final (V5 m ρ) c (m ((c : Thread nD τ).loc main_arg3)) (Boundary.bias1_5 m ρ c)).trans ?_
  show Rows1.layer (W5 m ρ c (Proc.devRef .tc main_v45)) (m ((c : Thread nD τ).loc main_arg3)) (W5 m ρ c (Proc.devRef .tc main_arg4)) = _
  rw [Boundary.agg5 m ρ c, first m ρ c, Boundary.w2_5 m ρ c]
  rfl

/-- The result: the network. -/
theorem result_eq : W8 m ρ c (Proc.devRef .tc main_v61)
    = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  refine (Rows2.final (V7 m ρ) c (m ((c : Thread nD τ).loc main_arg5)) (Boundary.bias2_7 m ρ c)).trans ?_
  show Rows2.logSm (Rows2.biased (W7 m ρ c (Proc.devRef .tc main_v60)) (m ((c : Thread nD τ).loc main_arg5))) = _
  rw [Boundary.agg7 m ρ c, second m ρ c]
  rfl

end Cert.KernelIdeal.Whole

end
-- ==== Proof.lean ====
/-
  A two-layer graph convolution with a logarithm of the softmax on top, computed by three row-blocked kernels with the
  edge aggregations between them on the host, against the same network written as whole-array host operations.

  Both programs compute, from the edge list alone, the source and target lists with self loops and the coefficient of
  every edge, in the same operations.  Layer by layer the kernel program differs from the reference only in where the
  dense arithmetic is done: each kernel takes 5000 rows at a time, and a product with a weight matrix, a bias row
  added to every row, a maximum with zero and the logarithm of the softmax of a row all act on each row by itself, so
  twenty row blocks give the whole array.  A narrowing to bf16 before a product is the identity on the extended reals.
  No law of arithmetic is used beyond that, so the inputs' finiteness is never opened.
  The kernel programs' frames are the generated frame certificates, the reference's is its run; the idealization rewrote nothing.
-/
import proofs.«175913_j16724602651052_1_alg».proof.Defs
import proofs.«175913_j16724602651052_1_alg».proof.Proof.Gen.Kernel
import proofs.«175913_j16724602651052_1_alg».proof.Proof.Gen.Kernel.Skeleton
import proofs.«175913_j16724602651052_1_alg».proof.Proof.Gen.Kernel.Launch
import proofs.«175913_j16724602651052_1_alg».proof.Proof.Gen.Kernel.Points
import proofs.«175913_j16724602651052_1_alg».proof.Proof.Gen.Kernel.Frame
import proofs.«175913_j16724602651052_1_alg».proof.Proof.Gen.KernelIdeal
import proofs.«175913_j16724602651052_1_alg».proof.Proof.Gen.KernelIdeal.Skeleton
import proofs.«175913_j16724602651052_1_alg».proof.Proof.Gen.KernelIdeal.Launch
import proofs.«175913_j16724602651052_1_alg».proof.Proof.Gen.KernelIdeal.Points
import proofs.«175913_j16724602651052_1_alg».proof.Proof.Gen.KernelIdeal.Frame
import proofs.«175913_j16724602651052_1_alg».proof.Proof.Gen.ReferenceIdeal
import proofs.«175913_j16724602651052_1_alg».proof.Proof.Gen.Pre_finite_inputs
import proofs.«175913_j16724602651052_1_alg».proof.Proof.RefRun
import proofs.«175913_j16724602651052_1_alg».proof.Proof.NamedRun
import proofs.«175913_j16724602651052_1_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both programs end with the network's function of the arguments in their result. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_eq m ρ c), (h c).2⟩) (Cert.KernelIdeal.Named.run (F := Ideal) m ρ)
  · refine (θ_run Cert.ReferenceIdeal.defs _ _).mono (fun _ h c => ⟨(h c).1.trans ?_, (h c).2⟩)
      (Cert.ReferenceIdeal.Hand.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
